-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x96x224x224 : Shape := ⟨4, ![16, 96, 224, 224]⟩
abbrev S_ : Shape := ⟨0, ![]⟩

class Facts : Prop where
  bcast_S_S16x96x224x224 : S_.BroadcastsInDim S16x96x224x224 (![] : Fin 0 → Fin S16x96x224x224.rank)
  reducesTo_S16x96x224x224_S_d0_1_2_3 : S16x96x224x224.ReducesTo [0, 1, 2, 3] S_
  h_S_ : 0 < S_.numel

variable [Facts]

def fn {F : FTy → Type} [FloatOps F] (main_arg0 : FVec F S16x96x224x224 .f32) : IVec S_ 1 :=
  let main_v0 : FVec F S16x96x224x224 .f32 := Host.absf main_arg0
  let main_cst : FVec F S_ .f32 := constant S_ .f32 0x7F800000#32
  let main_v1 : FVec F S16x96x224x224 .f32 := broadcastInDim S16x96x224x224 ![] bcast_S_S16x96x224x224 main_cst
  let main_v2 : IVec S16x96x224x224 1 := cmpf .olt main_v0 main_v1
  let main_c : IVec S_ 1 := constantI S_ 1 1#1
  let main_v3 : IVec S_ 1 := (fun x v => Host.reduce IntOp.andi x v reducesTo_S16x96x224x224_S_d0_1_2_3 h_S_) main_v2 main_c
  main_v3
-- ==== Kernel.lean ====
abbrev S16x96x224x224 : Shape := ⟨4, ![16, 96, 224, 224]⟩
abbrev S1536x224x224 : Shape := ⟨3, ![1536, 224, 224]⟩
abbrev S1536x223x223 : Shape := ⟨3, ![1536, 223, 223]⟩
abbrev S24x224x224 : Shape := ⟨3, ![24, 224, 224]⟩
abbrev S24x223x223 : Shape := ⟨3, ![24, 223, 223]⟩
abbrev S24x224x223 : Shape := ⟨3, ![24, 224, 223]⟩
abbrev S16x96x223x223 : Shape := ⟨4, ![16, 96, 223, 223]⟩

abbrev nBuf : Space → Nat
  | .hbm => 4
  | .vmem => 4
  | .smem => 0
  | _ => 0

abbrev bufTy : (tb : Table) → Fin (tcTables nBuf tb) → BufTy
  | .hbm, ⟨0, _⟩ => ⟨S16x96x224x224, .f32⟩
  | .hbm, ⟨1, _⟩ => ⟨S1536x224x224, .f32⟩
  | .hbm, ⟨2, _⟩ => ⟨S1536x223x223, .f32⟩
  | .hbm, ⟨3, _⟩ => ⟨S16x96x223x223, .f32⟩
  | .local _ .vmem, ⟨0, _⟩ => ⟨S24x224x224, .f32⟩
  | .local _ .vmem, ⟨1, _⟩ => ⟨S24x224x224, .f32⟩
  | .local _ .vmem, ⟨2, _⟩ => ⟨S24x223x223, .f32⟩
  | .local _ .vmem, ⟨3, _⟩ => ⟨S24x223x223, .f32⟩
  | _, _ => ⟨S16x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S24x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x223x223 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x96x224x224_S1536x224x224 : S16x96x224x224.ShapeCasts S1536x224x224
  inb_S24x224x224_S24x224x223_0_0_0 : ∀ a, (![0, 0, 0] : Fin 3 → Nat) a + S24x224x223.size a ≤ S24x224x224.size a
  h_S24x224x223 : 0 < S24x224x223.numel
  shapeCasts_S24x224x223_S24x224x223 : S24x224x223.ShapeCasts S24x224x223
  inb_S24x224x224_S24x224x223_0_0_1 : ∀ a, (![0, 0, 1] : Fin 3 → Nat) a + S24x224x223.size a ≤ S24x224x224.size a
  slices_S24x224x223_o0_0_0_S24x223x223 : S24x224x223.Slices ![0, 0, 0] S24x223x223
  slices_S24x224x223_o0_1_0_S24x223x223 : S24x224x223.Slices ![0, 1, 0] S24x223x223
  inb_S24x223x223_S24x223x223_0_0_0 : ∀ a, (![0, 0, 0] : Fin 3 → Nat) a + S24x223x223.size a ≤ S24x223x223.size a
  h_S24x223x223 : 0 < S24x223x223.numel
  shapeCasts_S1536x223x223_S16x96x223x223 : S1536x223x223.ShapeCasts S16x96x223x223
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x224x224.size a ≤ S1536x224x224.size a
  hwx0_0 : ∀ i : grid0.Coords, EltTy.bits .f32 = 32 ∨ (Rect.block (s := S1536x224x224) S24x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x223x223.size a ≤ S1536x223x223.size a
  hwx0_1 : ∀ i : grid0.Coords, EltTy.bits .f32 = 32 ∨ (Rect.block (s := S1536x223x223) S24x223x223.size (cc0_transform_1 i) (hinb0_1 i)).WholeWords (EltTy.packing .f32)

variable [Facts₀]

abbrev win0_0 : Pipeline.Window sig grid0 :=
  Pipeline.Window.ofSpec (Memref.whole main_v0) S24x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x223x223.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x96x224x224 : Shape := ⟨4, ![16, 96, 224, 224]⟩
abbrev S_ : Shape := ⟨0, ![]⟩
abbrev S16x96x223x223 : Shape := ⟨4, ![16, 96, 223, 223]⟩

abbrev nBuf : Space → Nat
  | .hbm => 4
  | .vmem => 0
  | .smem => 0
  | _ => 0

abbrev bufTy : (tb : Table) → Fin (tcTables nBuf tb) → BufTy
  | .hbm, ⟨0, _⟩ => ⟨S16x96x224x224, .f32⟩
  | .hbm, ⟨1, _⟩ => ⟨S_, .f32⟩
  | .hbm, ⟨2, _⟩ => ⟨S_, .f32⟩
  | .hbm, ⟨3, _⟩ => ⟨S16x96x223x223, .f32⟩
  | _, _ => ⟨S16x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x96x224x224_S16x96x223x223_w1s1p0_0_w1s1p0_0_w2s1p0_0_w2s1p0_0 : S16x96x224x224.ReduceWindows (![1, 1, 2, 2] : Fin 4 → Nat) ![1, 1, 1, 1] ![0, 0, 0, 0] ![0, 0, 0, 0] S16x96x223x223
  h_S_ : 0 < S_.numel

variable [Facts₀]

class Facts : Prop extends Facts₀ where

variable [Facts]
-- ==== Proof.PoolSpec.lean ====
/-
  The result both programs compute, as ONE function of the argument array, index by index: the maximum over the
  2 × 2 window of the last two axes that starts at the output's own coordinates (stride one, no padding, so every
  window lies inside the array and an output axis is one shorter than the input's, 223 against 224). It is stated at
  the two shapes the data is met at — the argument's own [16, 96, 224, 224], and [1536, 224, 224] with the two leading
  axes merged row-major (1536 = 16 · 96) — together with
  · the lattice law that joins the two orders of taking the maximum: folding the four entries one after the other
    from the bottom element equals the maximum of the two rows' maxima (the bottom is neutral, the maximum
    associative; nothing about finiteness is used);
  · merging the leading axes commutes with pooling: the pooled merged array, read back at [16, 96, 223, 223], is the
    pooled argument — both re-layouts keep the row-major position, and (n · 96 + c) is the merged coordinate.
-/
import Idealize.ShloMosaic.PureOps.Ideal
import Idealize.ShloMosaic.Lib.ValueIdx
import Idealize.ShloMosaic.Lib.Pipeline.Value

noncomputable section

namespace Cert.Pool

open Idealize.ShloMosaic Idealize.ShloMosaic.ValueIdx

/-- A window's first position on an axis of extent 224: the output coordinate itself. -/
def lo (h : Fin 223) : Fin 224 := ⟨h.val, by omega⟩
/-- Its second position: one further along. -/
def hi (h : Fin 223) : Fin 224 := ⟨h.val + 1, by omega⟩

theorem lo_val (h : Fin 223) : (lo h).val = h.val := rfl
theorem hi_val (h : Fin 223) : (hi h).val = h.val + 1 := rfl

/-- The maximum of a window's two rows' maxima, at [16, 96, 224, 224], by coordinates. -/
def cell4 (x : (⟨4, ![16, 96, 224, 224]⟩ : Shape).Idx → EReal) (n : Fin 16) (c : Fin 96) (h w : Fin 223) : EReal :=
  max (max (x (ix4 n c (lo h) (lo w))) (x (ix4 n c (lo h) (hi w))))
    (max (x (ix4 n c (hi h) (lo w))) (x (ix4 n c (hi h) (hi w))))

/-- The pooled array at the argument's own shape. -/
def pool4 (x : (⟨4, ![16, 96, 224, 224]⟩ : Shape).Idx → EReal) : (⟨4, ![16, 96, 223, 223]⟩ : Shape).Idx → EReal :=
  fun i => cell4 x (i 0) (i 1) (i 2) (i 3)

/-- The same with the leading axes merged, by coordinates. -/
def cell3 (x : (⟨3, ![1536, 224, 224]⟩ : Shape).Idx → EReal) (q : Fin 1536) (h w : Fin 223) : EReal :=
  max (max (x (ix3 q (lo h) (lo w))) (x (ix3 q (lo h) (hi w))))
    (max (x (ix3 q (hi h) (lo w))) (x (ix3 q (hi h) (hi w))))

/-- The pooled array at the merged shape. -/
def pool3 (x : (⟨3, ![1536, 224, 224]⟩ : Shape).Idx → EReal) : (⟨3, ![1536, 223, 223]⟩ : Shape).Idx → EReal :=
  fun i => cell3 x (i 0) (i 1) (i 2)

theorem pool4_ix (x : (⟨4, ![16, 96, 224, 224]⟩ : Shape).Idx → EReal) (n : Fin 16) (c : Fin 96) (h w : Fin 223) :
    pool4 x (ix4 n c h w) = cell4 x n c h w := rfl

theorem pool3_ix (x : (⟨3, ![1536, 224, 224]⟩ : Shape).Idx → EReal) (q : Fin 1536) (h w : Fin 223) :
    pool3 x (ix3 q h w) = cell3 x q h w := rfl

/-- Four entries folded one after the other from the bottom element are the maximum of the two pairs' maxima. -/
theorem fold_from_bot (a b c d : EReal) : max (max (max (max ⊥ a) b) c) d = max (max a b) (max c d) := by
  rw [max_bot_left, max_assoc (max a b) c d]

/-- The merged leading coordinate of (n, c). -/
def merged (n : Fin 16) (c : Fin 96) : Fin 1536 := ⟨n.val * 96 + c.val, by have := n.isLt; have := c.isLt; omega⟩

/-- The merged array at (n · 96 + c, h, w) is the argument at (n, c, h, w): the same row-major position. -/
theorem merge_read (x : (⟨4, ![16, 96, 224, 224]⟩ : Shape).Idx → EReal)
    (hc : (⟨4, ![16, 96, 224, 224]⟩ : Shape).ShapeCasts ⟨3, ![1536, 224, 224]⟩) (n : Fin 16) (c : Fin 96) (h w : Fin 224) :
    shapeCast ⟨3, ![1536, 224, 224]⟩ x hc (ix3 (merged n c) h w) = x (ix4 n c h w) :=
  shapeCast_apply x hc _ _ (by
    rw [Shape.rowMajor_val_four, Shape.rowMajor_val_three]
    show ((n.val * 96 + c.val) * 224 + h.val) * 224 + w.val = ((n.val * 96 + c.val) * 224 + h.val) * 224 + w.val
    rfl)

/-- Merging the leading axes commutes with pooling. -/
theorem pool_merged (x : (⟨4, ![16, 96, 224, 224]⟩ : Shape).Idx → EReal)
    (hc : (⟨4, ![16, 96, 224, 224]⟩ : Shape).ShapeCasts ⟨3, ![1536, 224, 224]⟩)
    (hc' : (⟨3, ![1536, 223, 223]⟩ : Shape).ShapeCasts ⟨4, ![16, 96, 223, 223]⟩) :
    shapeCast ⟨4, ![16, 96, 223, 223]⟩ (pool3 (shapeCast ⟨3, ![1536, 224, 224]⟩ x hc)) hc' = pool4 x := by
  funext i
  obtain ⟨n, c, h, w, rfl⟩ : ∃ (n : Fin 16) (c : Fin 96) (h w : Fin 223), i = ix4 n c h w :=
    ⟨i 0, i 1, i 2, i 3, eq_ix4 i⟩
  refine (shapeCast_apply _ hc' (ix4 n c h w) (ix3 (merged n c) h w) (by
    rw [Shape.rowMajor_val_three, Shape.rowMajor_val_four]
    show ((n.val * 96 + c.val) * 223 + h.val) * 223 + w.val = ((n.val * 96 + c.val) * 223 + h.val) * 223 + w.val
    rfl)).trans ?_
  rw [pool3_ix, pool4_ix]
  unfold cell3 cell4
  rw [merge_read, merge_read, merge_read, merge_read]

end Cert.Pool

end
-- ==== Proof.RefWindow.lean ====
/-
  The reference's windowed reduction, read at an index. A reduction over 1 × 1 × 2 × 2 windows at stride one with no
  padding visits, for the output index (n, c, h, w), the four positions (h, w), (h, w + 1), (h + 1, w), (h + 1, w + 1) of
  the last two axes in row-major order, every one inside the array (h + 1, w + 1 ≤ 223), and folds the body over them
  from the initial value. So for ANY body `f` the result is f (f (f (f v a) b) c) d of the four entries; at the
  extended reals the body is the maximum and the initial value, the word of minus infinity, is the bottom element, so the
  fold is the pooled array of the specification: the bottom is neutral and the maximum associative.
-/
import proofs.«174476_j7988639171216_2_alg».proof.Proof.Gen.ReferenceIdeal.Read
import proofs.«174476_j7988639171216_2_alg».proof.Proof.PoolSpec
import Idealize.ShloMosaic.PureOps.Contract

noncomputable section

namespace Cert.ReferenceIdeal.Pooled

open Cert.ReferenceIdeal Cert.ReferenceIdeal.Gen Idealize.ShloMosaic Idealize.ShloMosaic.ValueIdx Cert.Pool

/-- The window, as a shape: its positions are this shape's indices. -/
abbrev Wn : Shape := ⟨4, ![1, 1, 2, 2]⟩

/-- A window has four positions, -/
theorem numel_W : Wn.numel = 4 := by decide

/-- visited in this order, -/
theorem finRange_W : List.finRange Wn.numel = [⟨0, by decide⟩, ⟨1, by decide⟩, ⟨2, by decide⟩, ⟨3, by decide⟩] := by decide

/-- and these are their coordinates: nothing on the two leading axes, then (0, 0), (0, 1), (1, 0), (1, 1). -/
theorem win_table : ∀ (n : Fin Wn.numel) (a : Fin 4),
    (Wn.rowMajor.symm n a).val
      = (![![0, 0, 0, 0], ![0, 0, 0, 1], ![0, 0, 1, 0], ![0, 0, 1, 1]] : Fin 4 → Fin 4 → Nat) (n.cast numel_W) a := by
  decide

/-- One position read: with no padding, a position whose coordinates `p` are those of an index `k` of the array is
    inside it, and the operand is read at `k` (whichever way the bounds test is decided). -/
theorem read_pos {α : Type} (x : S16x96x224x224.Idx → α) (v : α) (p : Fin 4 → Nat) (k : S16x96x224x224.Idx)
    (hk : ∀ a, p a = (k a).val)
    {inst : Decidable (∀ a, (![0, 0, 0, 0] : Fin 4 → Nat) a ≤ p a
      ∧ p a - (![0, 0, 0, 0] : Fin 4 → Nat) a < (![16, 96, 224, 224] : Fin 4 → Nat) a)} :
    (if hin : ∀ a, (![0, 0, 0, 0] : Fin 4 → Nat) a ≤ p a
        ∧ p a - (![0, 0, 0, 0] : Fin 4 → Nat) a < (![16, 96, 224, 224] : Fin 4 → Nat) a
      then x (fun a => ⟨p a - (![0, 0, 0, 0] : Fin 4 → Nat) a, (hin a).2⟩) else v) = x k := by
  have hz : ∀ a : Fin 4, (![0, 0, 0, 0] : Fin 4 → Nat) a = 0 := by decide
  have hin : ∀ a, (![0, 0, 0, 0] : Fin 4 → Nat) a ≤ p a
      ∧ p a - (![0, 0, 0, 0] : Fin 4 → Nat) a < (![16, 96, 224, 224] : Fin 4 → Nat) a :=
    fun a => ⟨by rw [hz a]; exact Nat.zero_le _, by rw [hz a, hk a, Nat.sub_zero]; exact (k a).isLt⟩
  rw [dif_pos hin]
  exact congrArg x (funext fun a => Fin.ext (by
    show p a - (![0, 0, 0, 0] : Fin 4 → Nat) a = (k a).val
    rw [hz a, hk a, Nat.sub_zero]))

/-- The windowed reduction by any body `f` at (n, c, h, w): the fold of `f` from the initial value over the window's
    four entries, rows first. -/
theorem window_fold {α : Type} {u : Shape} (f : α → α → α) (x : S16x96x224x224.Idx → α) (v : u.Idx → α)
    (hrw : S16x96x224x224.ReduceWindows (![1, 1, 2, 2] : Fin 4 → Nat) ![1, 1, 1, 1] ![0, 0, 0, 0] ![0, 0, 0, 0] S16x96x223x223)
    (hu : 0 < u.numel) (n : Fin 16) (c : Fin 96) (h w : Fin 223) :
    Host.reduceWindow f ![1, 1, 2, 2] ![1, 1, 1, 1] ![0, 0, 0, 0] ![0, 0, 0, 0] x v hrw hu (ix4 n c h w)
      = f (f (f (f (v (Shape.Idx.first hu)) (x (ix4 n c (lo h) (lo w)))) (x (ix4 n c (lo h) (hi w))))
          (x (ix4 n c (hi h) (lo w)))) (x (ix4 n c (hi h) (hi w))) := by
  unfold Host.reduceWindow
  dsimp only
  rw [finRange_W]
  simp only [List.foldl_cons, List.foldl_nil]
  refine congrArg₂ f (congrArg₂ f (congrArg₂ f (congrArg₂ f rfl ?_) ?_) ?_) ?_
  · refine read_pos x _ _ (ix4 n c (lo h) (lo w)) (fun a => ?_)
    beta_reduce
    rw [win_table]
    match a with
    | ⟨0, _⟩ => show n.val * 1 + 0 = n.val; omega
    | ⟨1, _⟩ => show c.val * 1 + 0 = c.val; omega
    | ⟨2, _⟩ => show h.val * 1 + 0 = h.val; omega
    | ⟨3, _⟩ => show w.val * 1 + 0 = w.val; omega
  · refine read_pos x _ _ (ix4 n c (lo h) (hi w)) (fun a => ?_)
    beta_reduce
    rw [win_table]
    match a with
    | ⟨0, _⟩ => show n.val * 1 + 0 = n.val; omega
    | ⟨1, _⟩ => show c.val * 1 + 0 = c.val; omega
    | ⟨2, _⟩ => show h.val * 1 + 0 = h.val; omega
    | ⟨3, _⟩ => show w.val * 1 + 1 = w.val + 1; omega
  · refine read_pos x _ _ (ix4 n c (hi h) (lo w)) (fun a => ?_)
    beta_reduce
    rw [win_table]
    match a with
    | ⟨0, _⟩ => show n.val * 1 + 0 = n.val; omega
    | ⟨1, _⟩ => show c.val * 1 + 0 = c.val; omega
    | ⟨2, _⟩ => show h.val * 1 + 1 = h.val + 1; omega
    | ⟨3, _⟩ => show w.val * 1 + 0 = w.val; omega
  · refine read_pos x _ _ (ix4 n c (hi h) (hi w)) (fun a => ?_)
    beta_reduce
    rw [win_table]
    match a with
    | ⟨0, _⟩ => show n.val * 1 + 0 = n.val; omega
    | ⟨1, _⟩ => show c.val * 1 + 0 = c.val; omega
    | ⟨2, _⟩ => show h.val * 1 + 1 = h.val + 1; omega
    | ⟨3, _⟩ => show w.val * 1 + 1 = w.val + 1; omega

/-- The initial value's word is minus infinity: the bottom of the extended reals. -/
theorem neg_inf_word : Ideal.ofBits .f32 0xFF800000#32 = (⊥ : EReal) := by simp [Ideal.ofBits, Ideal.ieee]

/-- The reference's result, as an array of extended reals, is the pooled argument. -/
theorem result_eq (x : S16x96x224x224.Idx → EReal) :
    Read.val_main_v1 (F := Ideal) x = pool4 x := by
  funext i
  obtain ⟨n, c, h, w, rfl⟩ : ∃ (n : Fin 16) (c : Fin 96) (h w : Fin 223), i = ix4 n c h w :=
    ⟨i 0, i 1, i 2, i 3, eq_ix4 i⟩
  unfold Read.val_main_v1
  rw [window_fold, Read.val_main_v0_apply, Read.val_main_cst_apply, pool4_ix]
  unfold cell4
  simp only [Ideal.maximumf_def]
  show max (max (max (max (Ideal.ofBits .f32 0xFF800000#32) _) _) _) _ = _
  rw [neg_inf_word, fold_from_bot]

end Cert.ReferenceIdeal.Pooled

end
-- ==== Proof.BodyMax.lean ====
/-
  What the kernel body leaves in its output block, at an index. The body takes the input block's columns 0 … 222 and
  1 … 223 (two loads of the same [24, 224, 224] block, the second shifted one column), their entrywise maximum — a
  [24, 224, 223] array of row-wise pair maxima —, then that array's rows 0 … 222 and 1 … 223 and their entrywise maximum,
  which it stores over the whole [24, 223, 223] output block. So the entry (b, h, w) of the output block is the
  maximum of the two pair maxima of rows h and h + 1 at columns w, w + 1 of image b of the input block.
-/
import proofs.«174476_j7988639171216_2_alg».proof.Proof.Gen.KernelIdeal.Frame
import proofs.«174476_j7988639171216_2_alg».proof.Proof.PoolSpec
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Cert.Pool

/-- Offsets all zero, as a constant function. -/
theorem offsets_zero : (![0, 0, 0] : Fin 3 → Nat) = fun _ => 0 := funext fun a => by fin_cases a <;> rfl

/-- The first load reads the block's columns 0 … 222: at (b, h, w) the block's entry (b, h, w). -/
theorem ld_left (X : Vec Ideal S24x224x224 .f32) (b : Fin 24) (h : Fin 224) (w : Fin 223) :
    View.ld X r0_0 (ix3 b h w) = X (ix3 b h (lo w)) :=
  congrArg X (funext fun a => Fin.ext (match a with
    | ⟨0, _⟩ => by show 0 + 1 * b.val = b.val; omega
    | ⟨1, _⟩ => by show 0 + 1 * h.val = h.val; omega
    | ⟨2, _⟩ => by show 0 + 1 * w.val = w.val; omega))

/-- The second load reads its columns 1 … 223: at (b, h, w) the block's entry (b, h, w + 1). -/
theorem ld_right (X : Vec Ideal S24x224x224 .f32) (b : Fin 24) (h : Fin 224) (w : Fin 223) :
    View.ld X r0_1 (ix3 b h w) = X (ix3 b h (hi w)) :=
  congrArg X (funext fun a => Fin.ext (match a with
    | ⟨0, _⟩ => by show 0 + 1 * b.val = b.val; omega
    | ⟨1, _⟩ => by show 0 + 1 * h.val = h.val; omega
    | ⟨2, _⟩ => by show 1 + 1 * w.val = w.val + 1; omega))

/-- The stored value at (b, h, w), from the two loaded arrays: the maximum of their pair maxima at rows h and h + 1. -/
theorem pay_apply (v0 v2 : Vec Ideal S24x224x223 .f32) (b : Fin 24) (h w : Fin 223) :
    k0_pay1 (F := Ideal) v0 v2 (ix3 b h w)
      = max (max (v0 (ix3 b (lo h) w)) (v2 (ix3 b (lo h) w))) (max (v0 (ix3 b (hi h) w)) (v2 (ix3 b (hi h) w))) := by
  unfold k0_pay1
  rw [shapeCast_self, shapeCast_self]
  rw [maximumf_apply]
  refine congrArg₂ max ?_ ?_
  · exact extractStridedSlice_apply ![0, 0, 0] _ _ (ix3 b h w) (ix3 b (lo h) w) (fun a => match a with
      | ⟨0, _⟩ => by show b.val = 0 + b.val; omega
      | ⟨1, _⟩ => by show h.val = 0 + h.val; omega
      | ⟨2, _⟩ => by show w.val = 0 + w.val; omega)
  · exact extractStridedSlice_apply ![0, 1, 0] _ _ (ix3 b h w) (ix3 b (hi h) w) (fun a => match a with
      | ⟨0, _⟩ => by show b.val = 0 + b.val; omega
      | ⟨1, _⟩ => by show h.val + 1 = 1 + h.val; omega
      | ⟨2, _⟩ => by show w.val = 0 + w.val; omega)

/-- The output block after the body, at (b, h, w), from the input block: the window's maximum, rows first. -/
theorem block_cell (X : Vec Ideal S24x224x224 .f32) (b : Fin 24) (h w : Fin 223) :
    out0_1 (F := Ideal) X (ix3 b h w)
      = max (max (X (ix3 b (lo h) (lo w))) (X (ix3 b (lo h) (hi w))))
          (max (X (ix3 b (hi h) (lo w))) (X (ix3 b (hi h) (hi w)))) := by
  unfold out0_1
  rw [View.canon_unit_zero offsets_zero, pay_apply, ld_left, ld_right, ld_left, ld_right]

end Cert.KernelIdeal.Body

end
-- ==== Proof.PoolArray.lean ====
/-
  From blocks to the array, and through the two re-layouts around the region. The region runs over 64 points; point t
  fetches images 24 t … 24 t + 23 of the merged [1536, 224, 224] array (whole in the last two axes) and writes back the
  same images of the [1536, 223, 223] result. An output entry reads only its own image of the input, so what point t
  writes back is block t of ONE function of the whole input array — the pooled array of the specification at the merged
  shape —, and the 64 blocks tile the result (image q lies in block q / 24): the result array IS the pooled array. Before
  the region the argument is re-laid to the merged shape, after it the result is re-laid back to [16, 96, 223, 223]; both
  keep the row-major position, and merging the leading axes commutes with pooling, so the program's result is the pooled
  argument.
-/
import proofs.«174476_j7988639171216_2_alg».proof.Proof.Gen.KernelIdeal.Frame
import proofs.«174476_j7988639171216_2_alg».proof.Proof.BodyMax
import proofs.«174476_j7988639171216_2_alg».proof.Proof.PoolSpec
import Idealize.ShloMosaic.Lib.Pipeline.Value
import Idealize.ShloMosaic.Lib.StableHlo.Run
import Idealize.ShloMosaic.Lib.ValueIdx

noncomputable section

namespace Cert.KernelIdeal.Pooled

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (m : (ℓ : Loc nD τ sig) → Buf (Elt Ideal) ℓ) (ρ : Dev nD → PrngReg)

/-! ## The index maps over the grid -/

/-- At every point the input and the output window sit at the same block of the leading axis, at block zero of the
    other two, and the leading block index is below 64. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 63 :=
  (by decide +kernel : ∀ t : Fin grid0.N, _)

/-- Every leading block is some point's. -/
theorem idx_onto : ∀ q : Fin 64, ∃ t : Fin cfg0.N, win0_1.index t = ![q.val, 0, 0] :=
  (by decide +kernel : ∀ q : Fin 64, ∃ t : Fin grid0.N, win0_1.index t = ![q.val, 0, 0])

/-- Image b of point t's block is image (24 · block + b) of the array. -/
def lead (t : Fin cfg0.N) (b : Fin 24) : Fin 1536 :=
  ⟨win0_1.index t (0 : Fin 3) * 24 + b.val, by
    obtain ⟨_, _, _, _, _, e⟩ := idx_facts t
    have := b.isLt
    omega⟩

/-! ## What a point writes back -/

/-- The input block at point t, at (b, h, w), is the merged array at (24 · block + b, h, w). -/
theorem in_block (c : Dev nD) (t : Fin cfg0.N) (b : Fin 24) (h w : Fin 224) :
    iblk m c 0 t (ix3 b h w) = V m c main_v0 (ix3 (lead t b) h w) := by
  obtain ⟨e0, e1, e2, e3, e4, e5⟩ := idx_facts t
  show V m c main_v0 (((cfg0.win 0).blk t).view.emb (ix3 b h w)) = V m c main_v0 (ix3 (lead t b) h w)
  refine congrArg (V m c main_v0) (funext fun a => Fin.ext ?_)
  match a with
  | ⟨0, _⟩ =>
    show win0_0.index t (0 : Fin 3) * 24 + 1 * b.val = win0_1.index t (0 : Fin 3) * 24 + b.val
    omega
  | ⟨1, _⟩ =>
    show win0_0.index t (1 : Fin 3) * 224 + 1 * h.val = h.val
    omega
  | ⟨2, _⟩ =>
    show win0_0.index t (2 : Fin 3) * 224 + 1 * w.val = w.val
    omega

/-- WHAT POINT t WRITES BACK is block t of the pooled merged array. -/
theorem flushed_eq (c : Dev nD) (t : Fin cfg0.N) :
    (dats m 0 c).flushed 1 t = ((cfg0.win 1).blk t).view.read (Elt Ideal) (pool3 (V m c main_v0)) := by
  show (cfg0.win 1).cut (grid0.coords t) ((dats m 0 c).after 1 t) = _
  rw [after0_1]
  obtain ⟨e0, e1, e2, e3, e4, e5⟩ := idx_facts t
  funext j
  obtain ⟨b, h, w, rfl⟩ : ∃ (b : Fin 24) (h w : Fin 223), j = ix3 b h w := ⟨j 0, j 1, j 2, eq_ix3 j⟩
  show out0_1 (iblk m c 0 t) (ix3 b h w) = pool3 (V m c main_v0) (((cfg0.win 1).blk t).view.emb (ix3 b h w))
  have e : ((cfg0.win 1).blk t).view.emb (ix3 b h w) = ix3 (lead t b) h w := funext fun a => Fin.ext (match a with
    | ⟨0, _⟩ => by
      show win0_1.index t (0 : Fin 3) * 24 + 1 * b.val = win0_1.index t (0 : Fin 3) * 24 + b.val
      omega
    | ⟨1, _⟩ => by
      show win0_1.index t (1 : Fin 3) * 223 + 1 * h.val = h.val
      omega
    | ⟨2, _⟩ => by
      show win0_1.index t (2 : Fin 3) * 223 + 1 * w.val = w.val
      omega)
  rw [e, pool3_ix]
  refine (Body.block_cell (iblk m c 0 t) b h w).trans ?_
  unfold cell3
  rw [in_block, in_block, in_block, in_block]

/-! ## The blocks tile the result -/

/-- An index is in point t's block iff each coordinate is in the block's range on its axis. -/
theorem mem_blk (t : Fin cfg0.N) (i : S1536x223x223.Idx) :
    i ∈ ((cfg0.win 1).blk t).view.set ↔ ∀ a : Fin 3, win0_1.index t a * S24x223x223.size a ≤ (i a).val
      ∧ (i a).val < win0_1.index t a * S24x223x223.size a + S24x223x223.size a := by
  show i ∈ ((View.whole main_v1).slice (win0_1.rect t)).set ↔ _
  rw [View.set_slice_whole, Rect.mem_set_unit]
  exact Iff.rfl

/-- Every index of the result is in the block of the point at its image's block, image / 24. -/
theorem cover (i : S1536x223x223.Idx) :
    ∃ t : Fin cfg0.N, (cfg0.win 1).flush t = true ∧ i ∈ ((cfg0.win 1).blk t).view.set := by
  have h0 : (i 0).val < 1536 := (i 0).isLt
  have h1 : (i 1).val < 223 := (i 1).isLt
  have h2 : (i 2).val < 223 := (i 2).isLt
  obtain ⟨t, ht⟩ := idx_onto ⟨(i 0).val / 24, by omega⟩
  have q0 : win0_1.index t (0 : Fin 3) = (i 0).val / 24 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 24 ≤ (i 0).val ∧ (i 0).val < win0_1.index t (0 : Fin 3) * 24 + 24
    omega
  | ⟨1, _⟩ =>
    show win0_1.index t (1 : Fin 3) * 223 ≤ (i 1).val ∧ (i 1).val < win0_1.index t (1 : Fin 3) * 223 + 223
    omega
  | ⟨2, _⟩ =>
    show win0_1.index t (2 : Fin 3) * 223 ≤ (i 2).val ∧ (i 2).val < win0_1.index t (2 : Fin 3) * 223 + 223
    omega

/-- THE RESULT ARRAY after the region is the pooled merged array. -/
theorem final (c : Dev nD) : (dats m 0 c).arrAt 1 cfg0.N = pool3 (V m c main_v0) :=
  (dats m 0 c).arrAt_eq_of_cover 1 (pool3 (V m c main_v0)) (fun t _ => flushed_eq m c t) cover

/-! ## The re-layouts around the region -/

/-- The region finds the merged array: the argument re-laid to [1536, 224, 224]. -/
theorem entry_merged (c : Dev nD) :
    (V m c main_v0 : S1536x224x224.Idx → EReal)
      = shapeCast S1536x224x224 (m ((c : Thread nD τ).loc main_arg0)) Facts₀.shapeCasts_S16x96x224x224_S1536x224x224 := by
  show StableHlo.after hostOps0 (fun b => m (c, b)) (Proc.devRef .tc main_v0) = _
  after_results
  rfl

/-- The program's result: the region's result array re-laid to [16, 96, 223, 223]. -/
theorem tail_result (c : Dev nD) :
    Pipeline.afterTail₀ cfgs (dats m) 0 (V0 m) [hostOps1] c main_v2
      = shapeCast S16x96x223x223 ((dats m 0 c).arrAt 1 cfg0.N) Facts₀.shapeCasts_S1536x223x223_S16x96x223x223 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  rw [e]
  rfl

/-! ## The run, read -/

/-- Every weakly fair execution of the program terminates with its result at the pooled argument and the argument
    unchanged: the generated frame run, its result read through the last re-layout, the blocks, and the first. -/
theorem run : θ_run defs (onTc (τ := τ) (main (F := Ideal))) ⟨m, fun _ => 0, ρ⟩ fun r => ∀ c : Dev nD,
      r.2.mem ((c.tc : Thread nD τ).loc main_v2) = pool4 (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((tail_result m c).trans (by rw [final, entry_merged, pool_merged])),
        ((h c).2 main_arg0 (Pipeline.mem_restRefs_of main_arg0 (by decide) (by decide))).trans
          (W_main_arg0 m (dats m) c)⟩)
    (run_main m ρ)

end Cert.KernelIdeal.Pooled

end
-- ==== Proof.lean ====
/-
  A 2 × 2, stride-one, unpadded maximum pool over the last two axes of a [16, 96, 224, 224] array, computed two ways.
  The kernel merges the two leading axes, and per block of 24 images takes the maximum of each row's neighbouring
  columns and then of neighbouring rows — max (max (x h w) (x h (w+1))) (max (x (h+1) w) (x (h+1) (w+1))) — and re-lays the
  result back to four axes. The reference folds the maximum over each window's four entries from minus infinity.
  Over the extended reals minus infinity is the bottom element, so it is neutral for the maximum, and the maximum is
  associative: the two are one function of the argument, index by index, for every input — finiteness is not used.
  · Proof/PoolSpec.lean: that function at both shapes, the lattice law, and that merging the leading axes commutes
    with pooling.
  · Proof/RefWindow.lean: the reference's windowed fold read at an index is that function.
  · Proof/BodyMax.lean: the kernel body's stored block at an index.
  · Proof/PoolArray.lean: the 64 blocks tile the result array, which is therefore the pooled merged array; the two
    re-layouts around the region; the kernel's run with its result at the pooled argument.
  The three frames are the generated ones (the reference's is its generated run with the result dropped); the
  idealization rewrote no operation, so there is nothing to preserve.
-/
import proofs.«174476_j7988639171216_2_alg».proof.Defs
import proofs.«174476_j7988639171216_2_alg».proof.Proof.Gen.Kernel
import proofs.«174476_j7988639171216_2_alg».proof.Proof.Gen.Kernel.Skeleton
import proofs.«174476_j7988639171216_2_alg».proof.Proof.Gen.Kernel.Launch
import proofs.«174476_j7988639171216_2_alg».proof.Proof.Gen.Kernel.Points
import proofs.«174476_j7988639171216_2_alg».proof.Proof.Gen.Kernel.Frame
import proofs.«174476_j7988639171216_2_alg».proof.Proof.Gen.KernelIdeal
import proofs.«174476_j7988639171216_2_alg».proof.Proof.Gen.KernelIdeal.Skeleton
import proofs.«174476_j7988639171216_2_alg».proof.Proof.Gen.KernelIdeal.Launch
import proofs.«174476_j7988639171216_2_alg».proof.Proof.Gen.KernelIdeal.Points
import proofs.«174476_j7988639171216_2_alg».proof.Proof.Gen.KernelIdeal.Frame
import proofs.«174476_j7988639171216_2_alg».proof.Proof.Gen.ReferenceIdeal
import proofs.«174476_j7988639171216_2_alg».proof.Proof.Gen.ReferenceIdeal.Run
import proofs.«174476_j7988639171216_2_alg».proof.Proof.Gen.ReferenceIdeal.Read
import proofs.«174476_j7988639171216_2_alg».proof.Proof.Gen.Pre_finite_inputs
import proofs.«174476_j7988639171216_2_alg».proof.Proof.PoolSpec
import proofs.«174476_j7988639171216_2_alg».proof.Proof.RefWindow
import proofs.«174476_j7988639171216_2_alg».proof.Proof.BodyMax
import proofs.«174476_j7988639171216_2_alg».proof.Proof.PoolArray
import Idealize.ShloMosaic.Adequacy
import Idealize.ShloMosaic.Init

noncomputable section

namespace Cert.Proof

open Idealize.ShloMosaic Idealize.SL.Sem

/-- The kernel as printed runs and keeps its argument. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and keeps its argument: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the pooled argument: the kernel's run is stated at it, and the
    reference's windowed fold is it, index by index. -/
theorem algebraic : Cert.algebraic_KernelIdeal_ReferenceIdeal := by
  intro m ρ m' ρ' _ hagree
  refine ⟨fun c => Cert.Pool.pool4 (m ((c.tc : Thread Cert.KernelIdeal.nD Cert.KernelIdeal.τ).loc Cert.KernelIdeal.main_arg0)),
    Cert.KernelIdeal.Pooled.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.Pooled.result_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
